-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S128 : Shape := ⟨1, ![128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x16384 .f32) (main_arg1 : FVec F S16384x128 .f32) (main_arg2 : FVec F S128x128 .f32) (main_arg3 : FVec F S128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x16384 : Shape := ⟨2, ![16384, 16384]⟩
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S512x4096 : Shape := ⟨2, ![512, 4096]⟩
abbrev S4096x128 : Shape := ⟨2, ![4096, 128]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128, .f32⟩
  | .hbm, ⟨4, _⟩ => ⟨S16384x128, .f32⟩
  | .hbm, ⟨5, _⟩ => ⟨S128x128, .f32⟩
  | .hbm, ⟨6, _⟩ => ⟨S16384x128, .f32⟩
  | .hbm, ⟨7, _⟩ => ⟨S1x128, .f32⟩
  | .hbm, ⟨8, _⟩ => ⟨S16384x128, .f32⟩
  | .hbm, ⟨9, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Pieces.lean ====
/-
  What each control case of the kernel body leaves behind, as a value of the blocks it was given — for any float
  instance. The body has three cases along a row tile's four steps: the first step resets the scratch accumulator and
  adds the first product; the two middle steps add a product; the last step adds the fourth product and then stores the
  projection of the accumulator into the output block.
-/
import proofs.«152256_j58411555225967_1_alg».proof.Proof.Gen.KernelIdeal.Frame
import Idealize.ShloMosaic.Lib.Pipeline.Value
import Idealize.ShloMosaic.Lib.Tactic

noncomputable section

namespace Cert.KernelIdeal.Bridge

open Idealize.ShloMosaic Idealize.ShloMosaic.TcCoe Idealize.SL.Sem Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A MIDDLE step leaves in the scratch, which held `xs0`, the accumulation step's value of the two input blocks
    over `xs0`: its one store covers the scratch, and every load reads a whole buffer. -/
theorem sout_B (c : Dev nD) (i : grid0.Coords) (a2 : Memref sig .tc .vmem S512x4096 .f32) (h2 : a2.IsWhole)
    (a3 : Memref sig .tc .vmem S4096x128 .f32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (a7 : Memref sig .tc .vmem S512x128 .f32) (h7 : a7.IsWhole) (hc0 : ¬cond0_0 i) (hc1 : ¬cond0_1 i)
    (x0 : Vec F S512x4096 .f32) (x1 : Vec F S4096x128 .f32) (x2 : Vec F S128x128 .f32) (x3 : Vec F S1x128 .f32)
    (xs0 : Vec F S512x128 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h7.read_unread, View.ld_unit_zero (S := S512x4096) hz, View.ld_unit_zero (S := S4096x128) hz, View.ld_unit_zero (S := S512x128) hz, View.ld_unit_zero (S := S128x128) hz, View.ld_unit_zero (S := S1x128) hz]

/-- The LAST step of a row tile leaves the same in the scratch. -/
theorem sout_C (c : Dev nD) (i : grid0.Coords) (a2 : Memref sig .tc .vmem S512x4096 .f32) (h2 : a2.IsWhole)
    (a3 : Memref sig .tc .vmem S4096x128 .f32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (a7 : Memref sig .tc .vmem S512x128 .f32) (h7 : a7.IsWhole) (hc0 : ¬cond0_0 i) (hc1 : cond0_1 i)
    (x0 : Vec F S512x4096 .f32) (x1 : Vec F S4096x128 .f32) (x2 : Vec F S128x128 .f32) (x3 : Vec F S1x128 .f32)
    (xs0 : Vec F S512x128 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S512x4096) hz, View.ld_unit_zero (S := S4096x128) hz, View.ld_unit_zero (S := S512x128) hz, View.ld_unit_zero (S := S128x128) hz, View.ld_unit_zero (S := S1x128) hz]

/-- … and in the output's block the projection of what it has just stored in the scratch (read back whole), by the
    weight block and the bias block. -/
theorem out_C (c : Dev nD) (i : grid0.Coords) (a2 : Memref sig .tc .vmem S512x4096 .f32) (h2 : a2.IsWhole)
    (a3 : Memref sig .tc .vmem S4096x128 .f32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (a7 : Memref sig .tc .vmem S512x128 .f32) (h7 : a7.IsWhole) (hc0 : ¬cond0_0 i) (hc1 : cond0_1 i)
    (x0 : Vec F S512x4096 .f32) (x1 : Vec F S4096x128 .f32) (x2 : Vec F S128x128 .f32) (x3 : Vec F S1x128 .f32)
    (xs0 : Vec F S512x128 .f32) :
    out0_C_4 c i a2 h2 a3 h3 a4 h4 a5 h5 a6 h6 a7 h7 hc0 hc1 x0 x1 x2 x3 xs0 = k0_pay3 (k0_pay2 x0 x1 xs0) x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S512x128) _ hz]
  simp only [View.readAt_eq_ld, h2.read_unread, h3.read_unread, h4.read_unread, h5.read_unread, h7.read_unread, View.ld_unit_zero (S := S512x4096) hz, View.ld_unit_zero (S := S4096x128) hz, View.ld_unit_zero (S := S512x128) hz, View.ld_unit_zero (S := S128x128) hz, View.ld_unit_zero (S := S1x128) hz]

/-- The FIRST step of a row tile stores the zero block, reads it back, and leaves the accumulation step's value over
    it: what the scratch held before does not enter. -/
theorem sout_A (c : Dev nD) (i : grid0.Coords) (a2 : Memref sig .tc .vmem S512x4096 .f32) (h2 : a2.IsWhole)
    (a3 : Memref sig .tc .vmem S4096x128 .f32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (a7 : Memref sig .tc .vmem S512x128 .f32) (h7 : a7.IsWhole) (hc0 : cond0_0 i) (hc1 : ¬cond0_1 i)
    (x0 : Vec F S512x4096 .f32) (x1 : Vec F S4096x128 .f32) (x2 : Vec F S128x128 .f32) (x3 : Vec F S1x128 .f32) :
    sout0_A_0 c i a2 h2 a3 h3 a4 h4 a5 h5 a6 h6 a7 h7 hc0 hc1 x0 x1 x2 x3 = k0_pay2 x0 x1 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x128) hz, View.readCov_unit_zero (S := S512x128) _ hz]
  simp only [View.readAt_eq_ld, h2.read_unread, h3.read_unread, View.ld_unit_zero (S := S512x4096) hz, View.ld_unit_zero (S := S4096x128) hz, View.ld_unit_zero (S := S512x128) hz, View.ld_unit_zero (S := S128x128) hz, View.ld_unit_zero (S := S1x128) hz]

end Cert.KernelIdeal.Bridge

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.Payloads.lean ====
/-
  The three values the kernel body stores, read at an index on the extended reals: the zero block; the accumulator
  plus the product of an adjacency block with a feature block; and the accumulator against the transposed weight
  matrix plus the bias row. A change of float format is the identity on the extended reals, so the narrowing of the two
  factors before the product does not appear.
-/
import proofs.«152256_j58411555225967_1_alg».proof.Proof.Gen.KernelIdeal.Skeleton
import proofs.«152256_j58411555225967_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Bridge

open Idealize.ShloMosaic Idealize.ShloMosaic.ValueIdx Cert.KernelIdeal Cert.KernelIdeal.Gen

/-- The block stored at the first step of a row tile is zero everywhere. -/
theorem zeroBlock_apply (i : S512x128.Idx) : k0_pay1 (F := Ideal) i = (0 : EReal) := by
  unfold k0_pay1
  rw [shapeCast_self]
  exact Ideal.ofBits_zero_f32

/-- One accumulation step at `(p, q)`: the accumulator there plus the sum over the block's 4096 neighbours of the
    adjacency block's row `p` against the feature block's column `q`. -/
theorem accStep_apply (a : Vec Ideal S512x4096 .f32) (f : Vec Ideal S4096x128 .f32) (acc : Vec Ideal S512x128 .f32)
    (p : Fin 512) (q : Fin 128) :
    k0_pay2 (F := Ideal) a f acc (ix2 p q) = acc (ix2 p q) + ∑ k : Fin 4096, a (ix2 p k) * f (ix2 k q) := by
  unfold k0_pay2
  rw [shapeCast_self]
  refine congrArg (acc (ix2 p q) + ·) ?_
  exact Cert.Bridge.matmul_zero_plain _ rfl rfl rfl rfl rfl rfl none _ _ p q

/-- The projection at `(p, q)`: the accumulated row `p` against row `q` of the weight matrix (the product is with
    its transpose), plus the bias at `q`. -/
theorem project_apply (acc : Vec Ideal S512x128 .f32) (w : Vec Ideal S128x128 .f32) (b : Vec Ideal S1x128 .f32)
    (p : Fin 512) (q : Fin 128) :
    k0_pay3 (F := Ideal) acc w b (ix2 p q) = (∑ j : Fin 128, acc (ix2 p j) * w (ix2 q j)) + b (ix2 0 q) := by
  unfold k0_pay3
  rw [shapeCast_self]
  refine congrArg₂ (· + ·) ?_ ?_
  · refine (Cert.Bridge.matmul_zero_plain _ rfl rfl rfl rfl rfl rfl none _ _ p q).trans ?_
    refine Finset.sum_congr rfl fun j _ => congrArg (acc (ix2 p j) * ·) ?_
    exact transpose_apply [1, 0] w _ (ix2 j q) (ix2 q j) (fun b => match b with
      | ⟨0, _⟩ => rfl
      | ⟨1, _⟩ => rfl)
  · exact broadcastTo_apply b _ (ix2 p q) (ix2 0 q) (fun a => match a with
      | ⟨0, _⟩ => rfl
      | ⟨1, _⟩ => rfl)

end Cert.KernelIdeal.Bridge

end
-- ==== Proof.Blocks.lean ====
/-
  The windows' blocks as entries of the argument arrays. Grid point `t` is step `t % 4` of row tile `t / 4`: the
  adjacency block there is rows `512 * (t / 4) + p`, neighbours `4096 * (t % 4) + k`; the feature block is rows
  `4096 * (t % 4) + k`; the weight block is the whole weight matrix; the bias block is the bias vector laid out as one row.
-/
import proofs.«152256_j58411555225967_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Bridge

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block indices of the five windows at every grid point. -/
theorem index_adj : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index_feat : ∀ t : Fin cfg0.N, win0_1.index t 0 = t.val % 4 ∧ win0_1.index t 1 = 0 :=
  (by decide +kernel : ∀ t : Fin grid0.N, win0_1.index t 0 = t.val % 4 ∧ win0_1.index t 1 = 0)
theorem index_weight : ∀ t : Fin cfg0.N, win0_2.index t 0 = 0 ∧ win0_2.index t 1 = 0 :=
  (by decide +kernel : ∀ t : Fin grid0.N, win0_2.index t 0 = 0 ∧ win0_2.index t 1 = 0)
theorem index_bias : ∀ t : Fin cfg0.N, win0_3.index t 0 = 0 ∧ win0_3.index t 1 = 0 :=
  (by decide +kernel : ∀ t : Fin grid0.N, win0_3.index t 0 = 0 ∧ win0_3.index t 1 = 0)
theorem index_out : ∀ t : Fin cfg0.N, win0_4.index t 0 = t.val / 4 ∧ win0_4.index t 1 = 0 :=
  (by decide +kernel : ∀ t : Fin grid0.N, win0_4.index t 0 = t.val / 4 ∧ win0_4.index t 1 = 0)

/-- The adjacency block at point `t`: entry `x` is the adjacency matrix at row `512 * (t / 4) + x₀`, neighbour
    `4096 * (t % 4) + x₁`. -/
theorem adjBlock_apply (c : Dev nD) (t : Fin cfg0.N) (x : S512x4096.Idx) (k : S16384x16384.Idx)
    (hk0 : (k 0).val = 512 * (t.val / 4) + (x 0).val) (hk1 : (k 1).val = 4096 * (t.val % 4) + (x 1).val) :
    (iblk m c 0 t : Vec F S512x4096 .f32) x = (m ((c : Thread nD τ).loc main_arg0) : S16384x16384.Idx → Elt F .f32) k := by
  have hi := index_adj t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (x 0).val = (k 0).val; rw [hi.1, hk0]; omega
  | ⟨1, _⟩ => show win0_0.index t 1 * 4096 + 1 * (x 1).val = (k 1).val; rw [hi.2, hk1]; omega

/-- The feature block at point `t`: entry `x` is the feature matrix at row `4096 * (t % 4) + x₀`, column `x₁`. -/
theorem featBlock_apply (c : Dev nD) (t : Fin cfg0.N) (x : S4096x128.Idx) (k : S16384x128.Idx)
    (hk0 : (k 0).val = 4096 * (t.val % 4) + (x 0).val) (hk1 : (k 1).val = (x 1).val) :
    (iblk m c 1 t : Vec F S4096x128 .f32) x = (m ((c : Thread nD τ).loc main_arg1) : S16384x128.Idx → Elt F .f32) k := by
  have hi := index_feat t
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * (x 0).val = (k 0).val; rw [hi.1, hk0]; omega
  | ⟨1, _⟩ => show win0_1.index t 1 * 128 + 1 * (x 1).val = (k 1).val; rw [hi.2, hk1]; omega

/-- The weight block at every point is the weight matrix. -/
theorem weightBlock_apply (c : Dev nD) (t : Fin cfg0.N) (x : S128x128.Idx) :
    (iblk m c 2 t : Vec F S128x128 .f32) x = (m ((c : Thread nD τ).loc main_arg2) : S128x128.Idx → Elt F .f32) x := by
  have hi := index_weight t
  unfold iblk
  rw [View.read_apply]
  show V m c main_arg2 _ = m (c.tc.loc main_arg2) _
  rw [V_main_arg2]
  congr 1
  funext a
  apply Fin.ext
  match a with
  | ⟨0, _⟩ => show win0_2.index t 0 * 128 + 1 * (x 0).val = (x 0).val; rw [hi.1]; omega
  | ⟨1, _⟩ => show win0_2.index t 1 * 128 + 1 * (x 1).val = (x 1).val; rw [hi.2]; omega

/-- The array the bias window stages: the bias vector reshaped to one row by the host before the region. -/
theorem biasRow_eq (c : Dev nD) :
    (V m c main_v0 : S1x128.Idx → Elt F .f32) = shapeCast S1x128 (m ((c : Thread nD τ).loc main_arg3)) shapeCasts_S128_S1x128 := by
  dsimp only [V, hostOps0]
  after_results
  rfl

/-- The bias block at every point: entry `(0, q)` is the bias at `q`. -/
theorem biasBlock_apply (c : Dev nD) (t : Fin cfg0.N) (q : Fin 128) :
    (iblk m c 3 t : Vec F S1x128 .f32) (ix2 0 q) = (m ((c : Thread nD τ).loc main_arg3) : S128.Idx → Elt F .f32) (ix1 q) := by
  have hi := index_bias t
  unfold iblk
  rw [View.read_apply]
  show V m c main_v0 _ = _
  rw [biasRow_eq]
  refine (shapeCast_apply _ _ _ (ix1 q) ?_)
  rw [Shape.rowMajor_val_one, Shape.rowMajor_val_two]
  show q.val = (win0_3.index t 0 * 1 + 1 * 0) * 128 + (win0_3.index t 1 * 128 + 1 * q.val)
  rw [hi.1, hi.2]
  omega

end Cert.KernelIdeal.Bridge

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.Spec.lean ====
/-
  The dense graph-convolution layer as one function of its four arrays, on the extended reals:

    out[r, o] = (∑ j < 128, (∑ K < 16384, adj[r, K] * feat[K, j]) * W[o, j]) + b[o].

  The inner sum is the aggregation of feature j over the neighbours of node r; the outer sum projects the aggregated
  row by the transposed weight matrix. The aggregation may be taken four blocks of 4096 neighbours at a time: addition
  on the extended reals is associative and commutative, so the regrouping asks nothing of the entries.
-/
import proofs.«152256_j58411555225967_1_alg».proof.Proof.LibBlockSums
import Idealize.ShloMosaic.PureOps.Ideal
import Idealize.ShloMosaic.Lib.ValueIdx

noncomputable section

open scoped BigOperators

namespace Cert.Gcn

open Idealize.ShloMosaic Idealize.ShloMosaic.ValueIdx

/-- The aggregation of feature `j` at node `r`: the adjacency row `r` against the feature column `j`. -/
def agg (adj : (⟨2, ![16384, 16384]⟩ : Shape).Idx → EReal) (feat : (⟨2, ![16384, 128]⟩ : Shape).Idx → EReal)
    (r : Fin 16384) (j : Fin 128) : EReal :=
  ∑ K : Fin 16384, adj (ix2 r K) * feat (ix2 K j)

/-- The layer's output at `(r, o)`: the aggregated row `r` against row `o` of the weight matrix, plus the bias at `o`. -/
def layer (adj : (⟨2, ![16384, 16384]⟩ : Shape).Idx → EReal) (feat : (⟨2, ![16384, 128]⟩ : Shape).Idx → EReal)
    (W : (⟨2, ![128, 128]⟩ : Shape).Idx → EReal) (b : (⟨1, ![128]⟩ : Shape).Idx → EReal)
    (i : (⟨2, ![16384, 128]⟩ : Shape).Idx) : EReal :=
  (∑ j : Fin 128, agg adj feat (i 0) j * W (ix2 (i 1) j)) + b (ix1 (i 1))

/-- Neighbour `4096 * s + k`: the `k`-th of block `s`. -/
def nbr (s : Fin 4) (k : Fin 4096) : Fin 16384 :=
  ⟨4096 * s.val + k.val, by have := s.isLt; have := k.isLt; omega⟩

/-- Row `512 * q + p`: the `p`-th of row tile `q`. -/
def row (q : Fin 32) (p : Fin 512) : Fin 16384 :=
  ⟨512 * q.val + p.val, by have := q.isLt; have := p.isLt; omega⟩

/-- The aggregation, four blocks of 4096 neighbours at a time. -/
theorem agg_blocks (adj : (⟨2, ![16384, 16384]⟩ : Shape).Idx → EReal) (feat : (⟨2, ![16384, 128]⟩ : Shape).Idx → EReal)
    (r : Fin 16384) (j : Fin 128) :
    ∑ s : Fin 4, ∑ k : Fin 4096, adj (ix2 r (nbr s k)) * feat (ix2 (nbr s k) j) = agg adj feat r j :=
  Cert.BlockSums.sum_blocks_fin 4 4096 rfl (fun K : Fin 16384 => adj (ix2 r K) * feat (ix2 K j))

end Cert.Gcn

end
-- ==== Proof.Accumulate.lean ====
/-
  The scratch accumulator along a row tile, on the extended reals. Each of a tile's four steps adds, at `(p, j)`, the
  sum over its block of 4096 neighbours of adjacency × feature; the first step adds it to zero. So after the tile's last
  step the scratch holds, at `(p, j)`, zero plus the four block sums — which is the whole aggregation of feature `j` at
  the tile's row `p`, the neighbours merely grouped by block.
-/
import proofs.«152256_j58411555225967_1_alg».proof.Proof.Gen.KernelIdeal.Value
import proofs.«152256_j58411555225967_1_alg».proof.Proof.Pieces
import proofs.«152256_j58411555225967_1_alg».proof.Proof.Payloads
import proofs.«152256_j58411555225967_1_alg».proof.Proof.Blocks
import proofs.«152256_j58411555225967_1_alg».proof.Proof.Spec

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.KernelIdeal.Value Cert.Gcn

variable (m : (ℓ : Loc nD τ sig) → Buf (Elt Ideal) ℓ)

/-- The adjacency matrix and the feature matrix as the run finds them. -/
abbrev adjOf (c : Dev nD) : S16384x16384.Idx → EReal := m ((c : Thread nD τ).loc main_arg0)
abbrev featOf (c : Dev nD) : S16384x128.Idx → EReal := m ((c : Thread nD τ).loc main_arg1)

/-- The row tile and the neighbour block of grid point `n`. -/
abbrev tileOf (n : ℕ) : Fin 32 := ⟨n / 4 % 32, Nat.mod_lt _ (by decide)⟩
abbrev stepOf (n : ℕ) : Fin 4 := ⟨n % 4, Nat.mod_lt _ (by decide)⟩

/-- What grid point `n` adds at `(p, j)`: its block of neighbours' adjacency × feature, summed. -/
def addend (c : Dev nD) (n : ℕ) (i : S512x128.Idx) : EReal :=
  ∑ k : Fin 4096, adjOf m c (ix2 (row (tileOf n) (i 0)) (nbr (stepOf n) k)) * featOf m c (ix2 (nbr (stepOf n) k) (i 1))

/-- One accumulation step at grid point `n`, over any accumulator, in terms of the argument arrays. -/
theorem accStep_at (c : Dev nD) (n : ℕ) (hb : n < cfg0.N) (acc : Vec Ideal S512x128 .f32) (p : Fin 512) (q : Fin 128) :
    k0_pay2 (F := Ideal) (iblk m c 0 ⟨n, hb⟩) (iblk m c 1 ⟨n, hb⟩) acc (ix2 p q) = acc (ix2 p q) + addend m c n (ix2 p q) := by
  have hN : n < 128 := lt_of_lt_of_eq hb N_0
  refine (accStep_apply (iblk m c 0 ⟨n, hb⟩) (iblk m c 1 ⟨n, hb⟩) acc p q).trans ?_
  refine congrArg (acc (ix2 p q) + ·) (Finset.sum_congr rfl fun k _ => ?_)
  refine congrArg₂ (· * ·) ?_ ?_
  · refine adjBlock_apply m c ⟨n, hb⟩ (ix2 p k) (ix2 (row (tileOf n) p) (nbr (stepOf n) k)) ?_ rfl
    show 512 * (n / 4 % 32) + p.val = 512 * (n / 4) + p.val
    rw [Nat.mod_eq_of_lt (by omega)]
  · exact featBlock_apply m c ⟨n, hb⟩ (ix2 k q) (ix2 (nbr (stepOf n) k) q) rfl rfl

/-- What grid point `n` leaves in the scratch over what it held: zero at a tile's first step, the held value at the
    others, plus the point's addend. -/
theorem scAt_apply (c : Dev nD) (n : ℕ) (hb : n < cfg0.N) (acc : Vec Ideal S512x128 .f32) (i : S512x128.Idx) :
    scAt0_0 m c n hb acc i = (if n % 4 = 0 then 0 else acc i) + addend m c n i := by
  obtain ⟨p, q, rfl⟩ : ∃ (p : Fin 512) (q : Fin 128), i = ix2 p q := ⟨i 0, i 1, eq_ix2 i⟩
  unfold scAt0_0
  split_ifs with h0 h1 h1
  · omega
  · rw [sout_A]
    refine (accStep_at m c n hb _ p q).trans ?_
    rw [zeroBlock_apply]
  · rw [sout_C]
    exact accStep_at m c n hb acc p q
  · rw [sout_B]
    exact accStep_at m c n hb acc p q

/-- After the LAST step of a row tile the scratch holds, at `(p, j)`, the whole aggregation of feature `j` at the
    tile's row `p`: the run's fold from the tile's first step is zero plus the four steps' addends, and the four blocks
    of neighbours make up all 16384. -/
theorem tileAcc (c : Dev nD) (t : Fin cfg0.N) (h3 : t.val % 4 = 3) (p : Fin 512) (j : Fin 128) :
    (outsAt0 m c t.val t.isLt).2 (ix2 p j) = agg (adjOf m c) (featOf m c) (row (tileOf t.val) p) j := by
  have hN : t.val < 128 := lt_of_lt_of_eq t.isLt N_0
  rw [soutsAt0_0_eq m c t]
  refine (Pipeline.accAt_add_apply (ι := S512x128.Idx) (β := EReal)
    (fun n h => scAt0_0 m c n h (VS0_0.read (Elt Ideal) VS0_0.junk)) (scAt0_0 m c) (fun _ => (0 : EReal)) (addend m c)
    (4 * (t.val / 4)) 3
    (fun h i => by rw [scAt_apply, if_pos (Nat.mul_mod_right 4 _)])
    (fun n h acc i h1 h2 => by rw [scAt_apply, if_neg (by omega)])
    (t.val % 4) (by omega) _ (ix2 p j)).trans ?_
  rw [h3, zero_add, Finset.sum_range, ← agg_blocks]
  refine Finset.sum_congr rfl fun s _ => ?_
  have e1 : tileOf (4 * (t.val / 4) + s.val) = tileOf t.val :=
    Fin.ext (by show (4 * (t.val / 4) + s.val) / 4 % 32 = t.val / 4 % 32; have := s.isLt; congr 1; omega)
  have e2 : stepOf (4 * (t.val / 4) + s.val) = s :=
    Fin.ext (by show (4 * (t.val / 4) + s.val) % 4 = s.val; have := s.isLt; omega)
  unfold addend
  rw [e1, e2]

end Cert.KernelIdeal.Bridge

end
-- ==== Proof.KernelValue.lean ====
/-
  The kernel's result array after its run is the layer's output of the argument arrays, on the extended reals. The output
  block of row tile `q` is written back once, after the tile's last step, holding the projection of the accumulated
  aggregation of rows `512 * q + p`; the 32 tiles' blocks cover the result array's rows.
-/
import proofs.«152256_j58411555225967_1_alg».proof.Proof.Accumulate
import Idealize.ShloMosaic.Lib.Pipeline.Value

noncomputable section

open scoped BigOperators

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Gcn

variable (m : (ℓ : Loc nD τ sig) → Buf (Elt Ideal) ℓ) (ρ : Dev nD → PrngReg)

/-- The weight matrix and the bias vector as the run finds them. -/
abbrev weightOf (c : Dev nD) : S128x128.Idx → EReal := m ((c : Thread nD τ).loc main_arg2)
abbrev biasOf (c : Dev nD) : S128.Idx → EReal := m ((c : Thread nD τ).loc main_arg3)

/-- The layer's output of the argument arrays, as contents of the result array. -/
def result (c : Dev nD) : Buf (Elt Ideal) ((c : Thread nD τ).loc main_v1) :=
  layer (adjOf m c) (featOf m c) (weightOf m c) (biasOf m c)

/-- The block a row tile's last step stores: at `(p, q)` the layer's output at row `p` of the tile, column `q` —
    the projection of the scratch, which holds the tile's whole aggregation, by the weight matrix, plus the bias. -/
theorem lastStep_apply (c : Dev nD) (t : Fin cfg0.N) (h3 : t.val % 4 = 3) (p : Fin 512) (q : Fin 128) :
    k0_pay3 (F := Ideal) ((outsAt0 m c t.val t.isLt).2) (iblk m c 2 t) (iblk m c 3 t) (ix2 p q)
      = result m c (ix2 (row (tileOf t.val) p) q) := by
  refine (project_apply ((outsAt0 m c t.val t.isLt).2) (iblk m c 2 t) (iblk m c 3 t) p q).trans ?_
  unfold result layer
  exact congrArg₂ (· + ·)
    (Finset.sum_congr rfl fun j _ => congrArg₂ (· * ·) (tileAcc m c t h3 p j) (weightBlock_apply m c t (ix2 q j)))
    (biasBlock_apply m c t q)

/-- What a write-back of the output window writes is the layer's output read through the point's block. -/
theorem flushed_eq (c : Dev nD) (t : Fin cfg0.N) (hf : (cfg0.win 4).flush t = true) :
    (dats m 0 c).flushed 4 t = ((cfg0.win 4).blk t).view.read (Elt Ideal) (result m c) := by
  have hN : t.val < 128 := lt_of_lt_of_eq t.isLt N_0
  have h3 : t.val % 4 = 3 := (flush0_4 t).mp hf
  have h0 : ¬t.val % 4 = 0 := by omega
  have hi := index_out t
  have hs : (outsAt0 m c t.val t.isLt).2
      = k0_pay2 (iblk m c 0 t) (iblk m c 1 t) (outsAt0 m c (t.val - 1) (Nat.lt_of_le_of_lt (Nat.sub_le _ _) t.isLt)).2 := by
    rw [outsAt0_C m c t h0 h3]
    dsimp only
    rw [sout_C]
  rw [flushed4_C m c t h0 h3, out_C, ← hs]
  funext y
  obtain ⟨p, q, rfl⟩ : ∃ (p : Fin 512) (q : Fin 128), y = ix2 p q := ⟨y 0, y 1, eq_ix2 y⟩
  rw [View.read_apply]
  refine (lastStep_apply m c t h3 p q).trans ?_
  refine congrArg (result m c) (funext fun a => Fin.ext ?_)
  match a with
  | ⟨0, _⟩ =>
    show 512 * (t.val / 4 % 32) + p.val = win0_4.index t 0 * 512 + 1 * p.val
    rw [hi.1, Nat.mod_eq_of_lt (by omega)]; omega
  | ⟨1, _⟩ =>
    show q.val = win0_4.index t 1 * 128 + 1 * q.val
    rw [hi.2]; omega

/-- So the result array ends holding the layer's output: row `r` lies in the block of row tile `r / 512`, written back
    after that tile's last step. -/
theorem final (c : Dev nD) : (dats m 0 c).arrAt 4 cfg0.N = result m c :=
  (dats m 0 c).arrAt_eq_of_cover 4 (result m c) (flushed_eq m c) fun i => by
    have h0 : (i 0 : Nat) < 16384 := (i 0).isLt
    have h1 : (i 1 : Nat) < 128 := (i 1).isLt
    have hN : cfg0.N = 128 := N_0
    have ht : 4 * ((i 0 : Nat) / 512) + 3 < cfg0.N := by rw [hN]; omega
    have hi := index_out ⟨4 * ((i 0 : Nat) / 512) + 3, ht⟩
    refine ⟨⟨4 * ((i 0 : Nat) / 512) + 3, ht⟩, (flush0_4 _).mpr (by show (4 * ((i 0 : Nat) / 512) + 3) % 4 = 3; omega), ?_⟩
    show i ∈ ((View.whole main_v1).slice (win0_4.rect ⟨4 * ((i 0 : Nat) / 512) + 3, ht⟩)).set
    rw [View.set_slice_whole, Rect.mem_set_unit]
    intro a
    match a with
    | ⟨0, _⟩ =>
      show win0_4.index ⟨4 * ((i 0 : Nat) / 512) + 3, ht⟩ 0 * 512 ≤ (i 0 : Nat)
        ∧ (i 0 : Nat) < win0_4.index ⟨4 * ((i 0 : Nat) / 512) + 3, ht⟩ 0 * 512 + 512
      rw [hi.1]
      show (4 * ((i 0 : Nat) / 512) + 3) / 4 * 512 ≤ (i 0 : Nat) ∧ (i 0 : Nat) < (4 * ((i 0 : Nat) / 512) + 3) / 4 * 512 + 512
      omega
    | ⟨1, _⟩ =>
      show win0_4.index ⟨4 * ((i 0 : Nat) / 512) + 3, ht⟩ 1 * 128 ≤ (i 1 : Nat)
        ∧ (i 1 : Nat) < win0_4.index ⟨4 * ((i 0 : Nat) / 512) + 3, ht⟩ 1 * 128 + 128
      rw [hi.2]
      omega

/-- The kernel's run, read: the result array at the layer's output of the argument arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Bridge

end
-- ==== Proof.RefValue.lean ====
/-
  The reference computes the layer's output: its two matrix products are the aggregation and the projection, its
  transpose turns the weight matrix so that the projection pairs feature `j` with `W[o, j]`, and its two broadcasts lay
  the bias out along the rows. Index by index on the extended reals this is the specification's expression itself.
-/
import proofs.«152256_j58411555225967_1_alg».proof.Proof.Gen.ReferenceIdeal.Read
import proofs.«152256_j58411555225967_1_alg».proof.Proof.Spec

noncomputable section

open scoped BigOperators

namespace Cert.ReferenceIdeal.Bridge

open Idealize.ShloMosaic Idealize.ShloMosaic.ValueIdx Cert.ReferenceIdeal Cert.ReferenceIdeal.Read Cert.Gcn

/-- The reference's result, as a function of the four argument arrays, is the layer's output. -/
theorem reference_eq (x0 : (⟨S16384x16384, .f32⟩ : BufTy).Contents (Elt Ideal)) (x1 : (⟨S16384x128, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = layer x0 x1 x2 x3 := by
  funext i
  rw [val_main_v5_apply, val_main_v2_apply, val_main_v4_apply, val_main_v3_apply]
  unfold layer
  refine congrArg₂ (· + ·) (Finset.sum_congr rfl fun j _ => congrArg₂ (· * ·) ?_ ?_) ?_
  · rw [val_main_v0_apply]
    unfold agg
    refine Finset.sum_congr rfl fun K _ => congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · rw [val_main_v1_apply]
    exact congrArg x2 (funext fun a => Fin.ext (by match a with | ⟨0, _⟩ => rfl | ⟨1, _⟩ => rfl))
  · exact congrArg x3 (funext fun a => Fin.ext (by match a with | ⟨0, _⟩ => rfl))

end Cert.ReferenceIdeal.Bridge

end
-- ==== Proof.lean ====
/- A dense graph-convolution layer, `out = (adj · feat) · Wᵀ + b` over f32[16384, 16384], f32[16384, 128],
   f32[128, 128] and f32[128], computed by a tiled kernel and by two plain matrix products.

   The kernel walks a grid of 32 row tiles × 4 neighbour blocks. Along a row tile it keeps a [512, 128] accumulator:
   the first step sets it to zero and adds the product of the tile's [512, 4096] adjacency block with the matching
   [4096, 128] feature block, the next three steps add theirs, and the last step multiplies the accumulator by the
   transposed weight matrix, adds the bias row, and stores the tile's [512, 128] block of the result. On the extended
   reals every operation is exact and a change of float format is the identity, so entry `(r, o)` of the result is

       (∑ j < 128, (0 + ∑ s < 4, ∑ k < 4096, adj[r, 4096 s + k] * feat[4096 s + k, j]) * W[o, j]) + b[o],

   and the reference's is `(∑ j < 128, (∑ K < 16384, adj[r, K] * feat[K, j]) * W[o, j]) + b[o]`. The two agree because a
   sum over 16384 neighbours is the sum of its four blocks' sums — associativity and commutativity of addition, which
   hold on the extended reals at infinite entries too, so the inputs' finiteness is never used.

   Modules: Spec (the layer as one function, and the block law), Payloads (the three stored values at an index),
   Pieces (what each of the body's three cases leaves), Blocks (the windows' blocks as entries of the arrays),
   Accumulate (the accumulator after a tile's last step is the whole aggregation), KernelValue (the result array after
   the kernel's run), RefValue (the reference's result); LibBlockSums and LibPlainDot are general lemmas. The frames and
   the programs' stated facts are the generated modules'. The idealization rewrote nothing, so `preserves` is `True`. -/
import proofs.«152256_j58411555225967_1_alg».proof.Defs
import proofs.«152256_j58411555225967_1_alg».proof.Proof.Gen.Kernel
import proofs.«152256_j58411555225967_1_alg».proof.Proof.Gen.Kernel.Skeleton
import proofs.«152256_j58411555225967_1_alg».proof.Proof.Gen.Kernel.Launch
import proofs.«152256_j58411555225967_1_alg».proof.Proof.Gen.Kernel.Points
import proofs.«152256_j58411555225967_1_alg».proof.Proof.Gen.Kernel.Frame
import proofs.«152256_j58411555225967_1_alg».proof.Proof.Gen.KernelIdeal
import proofs.«152256_j58411555225967_1_alg».proof.Proof.Gen.KernelIdeal.Skeleton
import proofs.«152256_j58411555225967_1_alg».proof.Proof.Gen.KernelIdeal.Launch
import proofs.«152256_j58411555225967_1_alg».proof.Proof.Gen.KernelIdeal.Points
import proofs.«152256_j58411555225967_1_alg».proof.Proof.Gen.KernelIdeal.Frame
import proofs.«152256_j58411555225967_1_alg».proof.Proof.Gen.ReferenceIdeal
import proofs.«152256_j58411555225967_1_alg».proof.Proof.Gen.Pre_finite_inputs
import proofs.«152256_j58411555225967_1_alg».proof.Proof.Gen.KernelIdeal.Value
import proofs.«152256_j58411555225967_1_alg».proof.Proof.Gen.ReferenceIdeal.Run
import proofs.«152256_j58411555225967_1_alg».proof.Proof.Gen.ReferenceIdeal.Read
import proofs.«152256_j58411555225967_1_alg».proof.Proof.KernelValue
import proofs.«152256_j58411555225967_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference's run, with its result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- On the extended reals the kernel's result array ends at the layer's output of its arguments, and the reference's
    at the same function of arguments that agree with them. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Bridge.reference_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
